-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S10000x10000 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S200x128 : Shape := ⟨2, ![200, 128]⟩
abbrev S200x2560 : Shape := ⟨2, ![200, 2560]⟩
abbrev S2560x128 : Shape := ⟨2, ![2560, 128]⟩
abbrev S200x2320 : Shape := ⟨2, ![200, 2320]⟩
abbrev S2320x128 : Shape := ⟨2, ![2320, 128]⟩
abbrev S200 : Shape := ⟨1, ![200]⟩
abbrev S200x1 : Shape := ⟨2, ![200, 1]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x128, .f32⟩
  | .local _ .vmem, ⟨7, _⟩ => ⟨S200x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  slices_S200x10000_o0_0_S200x2560 : S200x10000.Slices ![0, 0] S200x2560
  inb_S10000x128_S2560x128_0_0 : ∀ a, (![0, 0] : Fin 2 → Nat) a + S2560x128.size a ≤ S10000x128.size a
  h_S2560x128 : 0 < S2560x128.numel
  slices_S200x10000_o0_2560_S200x2560 : S200x10000.Slices ![0, 2560] S200x2560
  inb_S10000x128_S2560x128_2560_0 : ∀ a, (![2560, 0] : Fin 2 → Nat) a + S2560x128.size a ≤ S10000x128.size a
  slices_S200x10000_o0_5120_S200x2560 : S200x10000.Slices ![0, 5120] S200x2560
  inb_S10000x128_S2560x128_5120_0 : ∀ a, (![5120, 0] : Fin 2 → Nat) a + S2560x128.size a ≤ S10000x128.size a
  slices_S200x10000_o0_7680_S200x2320 : S200x10000.Slices ![0, 7680] S200x2320
  inb_S10000x128_S2320x128_7680_0 : ∀ a, (![7680, 0] : Fin 2 → Nat) a + S2320x128.size a ≤ S10000x128.size a
  h_S2320x128 : 0 < S2320x128.numel
  reduces_S200x128_S200 : S200x128.Reduces [1] S200
  shapeCasts_S200_S200x1 : S200.ShapeCasts S200x1
  broadcasts_S200x1_S200x128 : S200x1.Broadcasts S200x128
  inb_S200x128_S200x128_0_0 : ∀ a, (![0, 0] : Fin 2 → Nat) a + S200x128.size a ≤ S200x128.size a
  h_S200x128 : 0 < S200x128.numel
  dot_S10000x128_S128x128_S10000x128_1_0_0_1_n_n_wf : DotDims.WF S10000x128 S128x128 S10000x128 [1] [0] [0] [1] [] []
  dot_S200x2560_S2560x128_S200x128_1_0_0_1_n_n_wf : DotDims.WF S200x2560 S2560x128 S200x128 [1] [0] [0] [1] [] []
  dot_S200x2320_S2320x128_S200x128_1_0_0_1_n_n_wf : DotDims.WF S200x2320 S2320x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x2560_S2560x128_S200x128_1_0_0_1_n_n : DotDims S200x2560 S2560x128 S200x128 where
  lhsContracting := [1]
  rhsContracting := [0]
  lhsNonContracting := [0]
  rhsNonContracting := [1]
  lhsBatch := []
  rhsBatch := []
  wf := dot_S200x2560_S2560x128_S200x128_1_0_0_1_n_n_wf
def dot_S200x2320_S2320x128_S200x128_1_0_0_1_n_n : DotDims S200x2320 S2320x128 S200x128 where
  lhsContracting := [1]
  rhsContracting := [0]
  lhsNonContracting := [0]
  rhsNonContracting := [1]
  lhsBatch := []
  rhsBatch := []
  wf := dot_S200x2320_S2320x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S10000 : Shape := ⟨1, ![10000]⟩
abbrev S10000x1 : Shape := ⟨2, ![10000, 1]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x10000, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000, .f32⟩
  | .hbm, ⟨10, _⟩ => ⟨S10000x1, .f32⟩
  | .hbm, ⟨11, _⟩ => ⟨S10000x1, .f32⟩
  | .hbm, ⟨12, _⟩ => ⟨S_, .f32⟩
  | .hbm, ⟨13, _⟩ => ⟨S10000x1, .f32⟩
  | .hbm, ⟨14, _⟩ => ⟨S10000x1, .f32⟩
  | .hbm, ⟨15, _⟩ => ⟨S10000x128, .f32⟩
  | .hbm, ⟨16, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What each case of the body leaves in the scratch and in the output band, as the body's own payloads.

  At the first grid point the body stores the support payload over the whole scratch and then loads its four row runs
  back, so the output band is the band payload over those runs of what was just stored. At every later point the
  scratch is not written, and the four loads read the runs of what the point before left there.
-/
import proofs.«150965_g49323404427479_cont_8to1c4_576_29_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem zeroOff : (![0, 0] : Fin 2 → Nat) = fun _ => 0 := funext fun a => by fin_cases a <;> rfl

/-- The four row runs of a scratch's contents, as the body's loads read them, under the band payload. -/
abbrev bandOver (x2 x3 : Vec F S200x10000 .f32) (S : Vec F S10000x128 .f32) : Vec F S200x128 .f32 :=
  k0_pay2 x2 x3
    (View.ld (Val := Elt F) (e' := .f32) S (Rect.unit (s := S10000x128) ![0, 0] S2560x128.size inb_S10000x128_S2560x128_0_0))
    (View.ld (Val := Elt F) (e' := .f32) S (Rect.unit (s := S10000x128) ![2560, 0] S2560x128.size inb_S10000x128_S2560x128_2560_0))
    (View.ld (Val := Elt F) (e' := .f32) S (Rect.unit (s := S10000x128) ![5120, 0] S2560x128.size inb_S10000x128_S2560x128_5120_0))
    (View.ld (Val := Elt F) (e' := .f32) S (Rect.unit (s := S10000x128) ![7680, 0] S2320x128.size inb_S10000x128_S2320x128_7680_0))

/-- A load through any rectangle of a buffer that one whole-buffer store has just filled reads that store's payload there. -/
theorem readBack (v : View sig .tc .vmem S10000x128 .f32) (w : S10000x128.Idx → Elt F .f32)
    (inb : ∀ a, (![0, 0] : Fin 2 → Nat) a + S10000x128.size a ≤ S10000x128.size a) (r : Rect S10000x128) :
    v.readCov [(⟨Rect.unit ![0, 0] S10000x128.size inb, w⟩ : View.Piece (Elt F) S10000x128 .f32)] r.toLoadRect
      = View.ld w r := by
  rw [View.readCov_eq_canon_ld _ _ _ (fun y => ⟨_, List.mem_singleton_self _, View.mem_set_unit_zero zeroOff inb y⟩),
    View.canon_unit_zero zeroOff]

/-- The first point leaves the support payload in the scratch. -/
theorem scratch_first (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S200x128 .f32) (h5 : a5.IsWhole) (a6 : Memref sig .tc .vmem S10000x128 .f32) (h6 : a6.IsWhole) (hc : cond0_0 i)
    (x0 : Vec F S10000x128 .f32) (x1 : Vec F S128x128 .f32) (x2 : Vec F S200x10000 .f32) (x3 : Vec F S200x10000 .f32) :
    sout0_A_0 c i a1 h1 a2 h2 a3 h3 a4 h4 a5 h5 a6 h6 hc x0 x1 x2 x3 = k0_pay1 x0 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero zeroOff]
  simp only [View.readAt_eq_ld, h1.read_unread, h2.read_unread, View.ld_unit_zero (S := S10000x128) zeroOff,
    View.ld_unit_zero (S := S128x128) zeroOff]

/-- The first point leaves in the output band the band payload over the support payload it has just stored. -/
theorem band_first (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S200x128 .f32) (h5 : a5.IsWhole) (a6 : Memref sig .tc .vmem S10000x128 .f32) (h6 : a6.IsWhole) (hc : cond0_0 i)
    (x0 : Vec F S10000x128 .f32) (x1 : Vec F S128x128 .f32) (x2 : Vec F S200x10000 .f32) (x3 : Vec F S200x10000 .f32) :
    out0_A_4 c i a1 h1 a2 h2 a3 h3 a4 h4 a5 h5 a6 h6 hc x0 x1 x2 x3 = bandOver x2 x3 (k0_pay1 x0 x1) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero zeroOff, readBack, readBack, readBack, readBack]
  simp only [View.readAt_eq_ld, h1.read_unread, h2.read_unread, h3.read_unread, h4.read_unread,
    View.ld_unit_zero (S := S10000x128) zeroOff, View.ld_unit_zero (S := S128x128) zeroOff,
    View.ld_unit_zero (S := S200x10000) zeroOff]

/-- A later point leaves in the output band the band payload over what the point before left in the scratch. -/
theorem band_later (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S200x128 .f32) (h5 : a5.IsWhole) (a6 : Memref sig .tc .vmem S10000x128 .f32) (h6 : a6.IsWhole) (hc : ¬cond0_0 i)
    (x0 : Vec F S10000x128 .f32) (x1 : Vec F S128x128 .f32) (x2 : Vec F S200x10000 .f32) (x3 : Vec F S200x10000 .f32) (xs : Vec F S10000x128 .f32) :
    out0_B_4 c i a1 h1 a2 h2 a3 h3 a4 h4 a5 h5 a6 h6 hc x0 x1 x2 x3 xs = bandOver x2 x3 xs := by
  unfold out0_B_4
  rw [View.read_writes_eq_canon _ _ _ (cover0_B_4 c i a1 h1 a2 h2 a3 h3 a4 h4 a5 h5 a6 h6 hc x0 x1 x2 x3 xs)]
  unfold kernelRun0_B
  dsimp only
  rw [View.canon_unit_zero zeroOff]
  simp only [View.readAt_eq_ld, h3.read_unread, h4.read_unread, h6.read_unread, View.ld_unit_zero (S := S200x10000) zeroOff]

end Cert.KernelIdeal.Pieces

end
-- ==== Proof.LibGcnLayer.lean ====
/-
  One dense graph-convolution layer with row normalisation, on the extended reals.

  From node features X (K×D), weights W (D×C) and two adjacency matrices A, B (M×K):
    the support   S(k, c) = Σ_j X(k, j) · W(j, c),
    the aggregate Y(r, c) = Σ_k (A(r, k) + B(r, k)) · S(k, c),
    the row norm  n(r)    = √(0 + Σ_c Y(r, c)²),
    the result    Y(r, c) / max(n(r), ε).
  Row r of the result depends on row r of A and B only, so a band of rows of the layer is the layer of that band
  of rows of A and B over the same support. A sum over consecutive indices may be taken in four runs: only
  associativity of addition is used, so this holds with infinite terms too.
-/
import Idealize.ShloMosaic.PureOps.Ideal
import Idealize.ShloMosaic.Lib.ValueIdx

noncomputable section

namespace Cert.Gcn

open Idealize.ShloMosaic Idealize.ShloMosaic.ValueIdx
open scoped BigOperators

variable {M K D C : ℕ}

/-- The float zero word, the initial value of the row sums. -/
abbrev zeroWord : EReal := Ideal.ofBits .f32 0x00000000#32

/-- The floor ε under the row norm: the float word both programs carry (about 10⁻¹²). -/
abbrev normFloor : EReal := Ideal.ofBits .f32 0x2B8CBCCC#32

/-- The support X·W: entry (k, c) is the sum over j of X(k, j)·W(j, c). -/
def support (X : (⟨2, ![K, D]⟩ : Shape).Idx → EReal) (W : (⟨2, ![D, C]⟩ : Shape).Idx → EReal) :
    (⟨2, ![K, C]⟩ : Shape).Idx → EReal :=
  fun i => ∑ j : Fin D, X (ix2 (i 0) j) * W (ix2 j (i 1))

theorem support_apply (X : (⟨2, ![K, D]⟩ : Shape).Idx → EReal) (W : (⟨2, ![D, C]⟩ : Shape).Idx → EReal)
    (k : Fin K) (c : Fin C) : support X W (ix2 k c) = ∑ j : Fin D, X (ix2 k j) * W (ix2 j c) := rfl

/-- The aggregate (A + B)·S: entry (r, c) is the sum over k of (A(r, k) + B(r, k))·S(k, c). -/
def aggregate (A B : (⟨2, ![M, K]⟩ : Shape).Idx → EReal) (S : (⟨2, ![K, C]⟩ : Shape).Idx → EReal) :
    (⟨2, ![M, C]⟩ : Shape).Idx → EReal :=
  fun i => ∑ k : Fin K, (A (ix2 (i 0) k) + B (ix2 (i 0) k)) * S (ix2 k (i 1))

theorem aggregate_apply (A B : (⟨2, ![M, K]⟩ : Shape).Idx → EReal) (S : (⟨2, ![K, C]⟩ : Shape).Idx → EReal)
    (r : Fin M) (c : Fin C) :
    aggregate A B S (ix2 r c) = ∑ k : Fin K, (A (ix2 r k) + B (ix2 r k)) * S (ix2 k c) := rfl

/-- The Euclidean norm of row r: the square root of the zero word plus the sum of the squares along the row. -/
def rowNorm (Y : (⟨2, ![M, C]⟩ : Shape).Idx → EReal) (r : Fin M) : EReal :=
  Ideal.sqrt (zeroWord + ∑ c : Fin C, Y (ix2 r c) * Y (ix2 r c))

/-- Each row divided by the larger of its norm and the floor. -/
def normalise (Y : (⟨2, ![M, C]⟩ : Shape).Idx → EReal) : (⟨2, ![M, C]⟩ : Shape).Idx → EReal :=
  fun i => Ideal.div (Y i) (max (rowNorm Y (i 0)) normFloor)

theorem normalise_apply (Y : (⟨2, ![M, C]⟩ : Shape).Idx → EReal) (r : Fin M) (c : Fin C) :
    normalise Y (ix2 r c) = Ideal.div (Y (ix2 r c)) (max (rowNorm Y r) normFloor) := rfl

/-- The layer: the normalised aggregate over the support. -/
def layer (A B : (⟨2, ![M, K]⟩ : Shape).Idx → EReal) (X : (⟨2, ![K, D]⟩ : Shape).Idx → EReal)
    (W : (⟨2, ![D, C]⟩ : Shape).Idx → EReal) : (⟨2, ![M, C]⟩ : Shape).Idx → EReal :=
  normalise (aggregate A B (support X W))

/-- Row p of the normalised aggregate of A', B' is row r of the normalised aggregate of A, B when row p of A' is row r
    of A and likewise for B: the aggregate's row, its norm and the quotient all read that one row. -/
theorem normalise_aggregate_row {M' : ℕ} (A B : (⟨2, ![M, K]⟩ : Shape).Idx → EReal)
    (A' B' : (⟨2, ![M', K]⟩ : Shape).Idx → EReal) (S : (⟨2, ![K, C]⟩ : Shape).Idx → EReal) (p : Fin M') (r : Fin M)
    (hA : ∀ k : Fin K, A' (ix2 p k) = A (ix2 r k)) (hB : ∀ k : Fin K, B' (ix2 p k) = B (ix2 r k)) (c : Fin C) :
    normalise (aggregate A' B' S) (ix2 p c) = normalise (aggregate A B S) (ix2 r c) := by
  have hrow : ∀ c' : Fin C, aggregate A' B' S (ix2 p c') = aggregate A B S (ix2 r c') := fun c' => by
    rw [aggregate_apply, aggregate_apply]
    exact Finset.sum_congr rfl fun k _ => by rw [hA k, hB k]
  rw [normalise_apply, normalise_apply, hrow c]
  unfold rowNorm
  rw [Finset.sum_congr rfl fun c' _ => by rw [hrow c']]

/-- A sum over a + b + c + d consecutive indices, taken in four consecutive runs. -/
theorem sum_four_runs {N : Type*} [AddCommMonoid N] {a b c d n : ℕ} (hn : a + b + c + d = n) (f : Fin n → N) :
    ∑ j : Fin n, f j
      = ((∑ j : Fin a, f ⟨j.val, by omega⟩ + ∑ j : Fin b, f ⟨a + j.val, by omega⟩)
          + ∑ j : Fin c, f ⟨a + b + j.val, by omega⟩)
        + ∑ j : Fin d, f ⟨a + b + c + j.val, by omega⟩ := by
  subst hn
  rw [Fin.sum_univ_add, Fin.sum_univ_add, Fin.sum_univ_add]
  rfl

end Cert.Gcn

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.BlockValue.lean ====
/-
  What the kernel's body computes, read entry by entry on the extended reals.

  The body's first store (made at the first grid point only) is the support X·W, a product into a zero splat. Its
  second store takes a band of rows of the two adjacency matrices, adds them, multiplies the sum against the support
  in four runs of the contracted index (2560 + 2560 + 2560 + 2320 = 10000, each run a product of a column slice of the
  sum with the matching rows of the support, into a zero splat), adds the four partial products, and divides each row
  by the larger of its Euclidean norm and the floor. The four partial sums are the one sum over all 10000 indices
  taken in consecutive runs, so the stored band is the normalised aggregate of the band.
-/
import proofs.«150965_g49323404427479_cont_8to1c4_576_29_alg».proof.Proof.Gen.KernelIdeal.Skeleton
import proofs.«150965_g49323404427479_cont_8to1c4_576_29_alg».proof.Proof.LibGcnLayer
import proofs.«150965_g49323404427479_cont_8to1c4_576_29_alg».proof.Proof.LibLayout
import proofs.«150965_g49323404427479_cont_8to1c4_576_29_alg».proof.Proof.LibSplit
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx
open scoped BigOperators

/-- A load of n consecutive rows of a matrix from row o reads, at (j, q), the matrix at (o + j, q). -/
theorem ld_rows_apply {m c n : ℕ} (S : (⟨2, ![m, c]⟩ : Shape).Idx → EReal) (o : ℕ)
    (inb : ∀ a, (![o, 0] : Fin 2 → ℕ) a + (⟨2, ![n, c]⟩ : Shape).size a ≤ (⟨2, ![m, c]⟩ : Shape).size a)
    (j : Fin n) (q : Fin c) (r : Fin m) (hr : r.val = o + j.val) :
    View.ld (Val := Elt Ideal) (e' := .f32) S (Rect.unit (s := ⟨2, ![m, c]⟩) ![o, 0] (⟨2, ![n, c]⟩ : Shape).size inb) (ix2 j q)
      = S (ix2 r q) := by
  show S _ = S _
  refine congrArg S (funext fun a => Fin.ext ?_)
  match a with
  | ⟨0, _⟩ => show o + 1 * j.val = r.val; omega
  | ⟨1, _⟩ => show 0 + 1 * q.val = q.val; omega

/-- One run of the contraction: the columns o … o+n-1 of A + B against the rows o … o+n-1 of the support, into a zero
    splat, is at (p, q) the sum over that run of (A(p, k) + B(p, k))·S(k, q). The run's indices are given by any
    function `row` with `row j = o + j`. -/
theorem run_apply {M K C n : ℕ} (o : ℕ) (A B : FVec Ideal ⟨2, ![M, K]⟩ .f32) (S : FVec Ideal ⟨2, ![K, C]⟩ .f32)
    (d : DotDims ⟨2, ![M, n]⟩ ⟨2, ![n, C]⟩ ⟨2, ![M, C]⟩) (hd : d = DotDims.plain M n C)
    (hs : (⟨2, ![M, K]⟩ : Shape).Slices ![0, o] ⟨2, ![M, n]⟩)
    (inb : ∀ a, (![o, 0] : Fin 2 → ℕ) a + (⟨2, ![n, C]⟩ : Shape).size a ≤ (⟨2, ![K, C]⟩ : Shape).size a)
    (row : Fin n → Fin K) (hrow : ∀ j, (row j).val = o + j.val) (p : Fin M) (q : Fin C) :
    matmul (φ₁ := .f32) (φ₂ := .f32) d none (extractStridedSlice ⟨2, ![M, n]⟩ ![0, o] (addf A B) hs)
        (View.ld (Val := Elt Ideal) (e' := .f32) S (Rect.unit (s := ⟨2, ![K, C]⟩) ![o, 0] (⟨2, ![n, C]⟩ : Shape).size inb)
          : FVec Ideal ⟨2, ![n, C]⟩ .f32)
        (constant ⟨2, ![M, C]⟩ .f32 0x00000000#32) (ix2 p q)
      = ∑ j : Fin n, (A (ix2 p (row j)) + B (ix2 p (row j))) * S (ix2 (row j) q) := by
  refine (Cert.Bridge.Split.matmul_zero_plain_apply d hd _ _ p q).trans ?_
  refine Finset.sum_congr rfl fun j _ => ?_
  rw [slice2_axis1_apply o (addf A B) hs p j (row j) (hrow j), addf_apply, ld_rows_apply S o inb j q (row j) (hrow j)]

/-- A lane sum over the columns of a 200×128 matrix from the zero word, read at row r. -/
theorem rowSum_apply (Z : FVec Ideal S200x128 .f32) (h : S200x128.Reduces [1] S200) (hφ : FKind.Formats .f32)
    (hacc : (0x00000000#32 : BitVec 32) = FKind.add.neutral .f32 hφ) (r : Fin 200) :
    multiReduction .add [1] S200 Z 0x00000000#32 h hφ hacc (ix1 r) = ∑ c : Fin 128, Z (ix2 r c) := by
  refine (Ideal.multiReduction_add_single Z 0x00000000#32 h hφ hacc (ix1 r)).trans ?_
  exact Finset.sum_congr rfl fun c _ => congrArg Z (funext fun a => Fin.ext (by
    match a with
    | ⟨0, _⟩ => rfl
    | ⟨1, _⟩ => rfl))

/-- The kernel's spelling of the row normalisation of a 200×128 band — squares, a lane sum from the zero word, the sum
    as a column, its square root, the larger of that and the floor broadcast along the rows, the quotient — is the
    normalisation of the band: the zero word reads 0 and 0 + s = s. -/
theorem band_normalise_eq (Y : FVec Ideal S200x128 .f32) (h : S200x128.Reduces [1] S200) (hφ : FKind.Formats .f32)
    (hacc : (0x00000000#32 : BitVec 32) = FKind.add.neutral .f32 hφ) (hc : S200.ShapeCasts S200x1)
    (hb : S200x1.Broadcasts S200x128) :
    divf Y (broadcastTo S200x128
        (maximumf (sqrt (shapeCast S200x1 (multiReduction .add [1] S200 (mulf Y Y) 0x00000000#32 h hφ hacc) hc))
          (broadcast S200x1 (Scalar.ofBits (F := Ideal) .f32 0x2B8CBCCC#32))) hb)
      = Cert.Gcn.normalise Y := by
  funext i
  obtain ⟨p, q, rfl⟩ : ∃ (p : Fin 200) (q : Fin 128), i = ix2 p q := ⟨i 0, i 1, eq_ix2 i⟩
  rw [Cert.Gcn.normalise_apply]
  show Ideal.div (Y (ix2 p q)) (broadcastTo S200x128 _ hb (ix2 p q)) = _
  rw [Cert.Bridge.Layout.broadcastTo_a1_an_apply]
  show Ideal.div (Y (ix2 p q)) (max (Ideal.sqrt (shapeCast S200x1 _ hc (ix2 p (0 : Fin 1)))) (Ideal.ofBits .f32 0x2B8CBCCC#32)) = _
  rw [Cert.Bridge.Layout.shapeCast_a_a1_apply, rowSum_apply]
  unfold Cert.Gcn.rowNorm
  rw [show Cert.Gcn.zeroWord = 0 from Ideal.ofBits_zero_f32, zero_add]
  rfl

/-- The first store's payload is the support: a product into the zero splat with the plain contraction. -/
theorem support_payload (x0 : Vec Ideal S10000x128 .f32) (x1 : Vec Ideal S128x128 .f32) :
    k0_pay1 x0 x1 = Cert.Gcn.support x0 x1 := by
  funext i
  obtain ⟨k, c, rfl⟩ : ∃ (k : Fin 10000) (c : Fin 128), i = ix2 k c := ⟨i 0, i 1, eq_ix2 i⟩
  unfold k0_pay1
  show shapeCast S10000x128 _ _ (ix2 k c) = _
  rw [shapeCast_self]
  exact Cert.Bridge.Split.matmul_zero_plain_apply _ rfl x0 x1 k c

/-- The second store's payload, over a band x2, x3 of the adjacency matrices and the four row runs of a support S, is the
    normalised aggregate of the band over S: the four partial products are the whole sum taken in consecutive runs. -/
theorem band_payload (x2 x3 : Vec Ideal S200x10000 .f32) (S : Vec Ideal S10000x128 .f32)
    (i0 : ∀ a, (![0, 0] : Fin 2 → ℕ) a + S2560x128.size a ≤ S10000x128.size a)
    (i1 : ∀ a, (![2560, 0] : Fin 2 → ℕ) a + S2560x128.size a ≤ S10000x128.size a)
    (i2 : ∀ a, (![5120, 0] : Fin 2 → ℕ) a + S2560x128.size a ≤ S10000x128.size a)
    (i3 : ∀ a, (![7680, 0] : Fin 2 → ℕ) a + S2320x128.size a ≤ S10000x128.size a) :
    k0_pay2 x2 x3 (View.ld (Val := Elt Ideal) (e' := .f32) S (Rect.unit (s := S10000x128) ![0, 0] S2560x128.size i0))
        (View.ld (Val := Elt Ideal) (e' := .f32) S (Rect.unit (s := S10000x128) ![2560, 0] S2560x128.size i1))
        (View.ld (Val := Elt Ideal) (e' := .f32) S (Rect.unit (s := S10000x128) ![5120, 0] S2560x128.size i2))
        (View.ld (Val := Elt Ideal) (e' := .f32) S (Rect.unit (s := S10000x128) ![7680, 0] S2320x128.size i3))
      = Cert.Gcn.normalise (Cert.Gcn.aggregate x2 x3 S) := by
  refine (band_normalise_eq _ _ _ _ _ _).trans (congrArg Cert.Gcn.normalise ?_)
  funext i
  obtain ⟨p, q, rfl⟩ : ∃ (p : Fin 200) (q : Fin 128), i = ix2 p q := ⟨i 0, i 1, eq_ix2 i⟩
  rw [Cert.Gcn.aggregate_apply, Cert.Gcn.sum_four_runs (a := 2560) (b := 2560) (c := 2560) (d := 2320) rfl]
  show ((_ + _) + _) + _ = _
  refine congrArg₂ (· + ·) (congrArg₂ (· + ·) (congrArg₂ (· + ·) ?_ ?_) ?_) ?_
  · exact run_apply 0 x2 x3 S _ rfl _ i0 (fun j => ⟨j.val, by omega⟩) (fun j => (Nat.zero_add _).symm) p q
  · exact run_apply 2560 x2 x3 S _ rfl _ i1 (fun j => ⟨2560 + j.val, by omega⟩) (fun j => rfl) p q
  · exact run_apply 5120 x2 x3 S _ rfl _ i2 (fun j => ⟨2560 + 2560 + j.val, by omega⟩) (fun j => rfl) p q
  · exact run_apply 7680 x2 x3 S _ rfl _ i3 (fun j => ⟨2560 + 2560 + 2560 + j.val, by omega⟩) (fun j => rfl) p q

end Cert.KernelIdeal.BlockValue

end
-- ==== Proof.Sweep.lean ====
/-
  The grid sweep, on the extended reals: what the scratch and the output band hold after each grid point.

  The windows of X and W are the whole arrays at every point, so the first point stores the support X·W of the
  arguments in the scratch; no later point writes the scratch, so it holds that support after every point (induction on
  the point). Hence every point, the first included, leaves in its output band the normalised aggregate of its band
  of rows of the two adjacency matrices over that one support.
-/
import proofs.«150965_g49323404427479_cont_8to1c4_576_29_alg».proof.Proof.Gen.KernelIdeal.Value
import proofs.«150965_g49323404427479_cont_8to1c4_576_29_alg».proof.Proof.Pieces
import proofs.«150965_g49323404427479_cont_8to1c4_576_29_alg».proof.Proof.BlockValue

noncomputable section

namespace Cert.KernelIdeal.Sweep

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The printed index maps over the grid: the windows of X and W stay at block (0, 0); the two adjacency windows and
    the output window are at block (t, 0) at point t. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The window of X is the whole of X at every point. -/
theorem features_block (c : Dev nD) (t : Fin cfg0.N) :
    (iblk m c 0 t : Vec Ideal S10000x128 .f32) = V m c main_arg0 := by
  obtain ⟨e0, e1, -⟩ := index_facts t
  funext y
  show V m c main_arg0 (((cfg0.win 0).blk t).view.emb y) = V m c main_arg0 y
  refine congrArg (V m c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The window of W is the whole of W at every point. -/
theorem weights_block (c : Dev nD) (t : Fin cfg0.N) :
    (iblk m c 1 t : Vec Ideal S128x128 .f32) = V m c main_arg3 := by
  obtain ⟨-, -, e0, e1, -⟩ := index_facts t
  funext y
  show V m c main_arg3 (((cfg0.win 1).blk t).view.emb y) = V m c main_arg3 y
  refine congrArg (V m c main_arg3) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The support of the arguments. -/
abbrev supp (c : Dev nD) : Vec Ideal S10000x128 .f32 := Cert.Gcn.support (V m c main_arg0) (V m c main_arg3)

/-- The band payload over the support payload is the normalised aggregate over the support. -/
theorem first_band_value (x0 : Vec Ideal S10000x128 .f32) (x1 : Vec Ideal S128x128 .f32) (x2 x3 : Vec Ideal S200x10000 .f32) :
    Pieces.bandOver x2 x3 (k0_pay1 x0 x1) = Cert.Gcn.normalise (Cert.Gcn.aggregate x2 x3 (Cert.Gcn.support x0 x1)) :=
  (BlockValue.band_payload x2 x3 (k0_pay1 x0 x1) _ _ _ _).trans (by rw [BlockValue.support_payload])

/-- After every point the scratch holds the support of the arguments. -/
theorem scratch_eq (c : Dev nD) : ∀ (n : ℕ) (hn : n < cfg0.N), (outsAt0 m c n hn).2 = supp m c
  | 0, hn => by
    rw [outsAt0_A m c ⟨0, hn⟩ rfl]
    dsimp only
    rw [Pieces.scratch_first, BlockValue.support_payload, features_block, weights_block]
  | n + 1, hn => by
    have hN : cfg0.N = 50 := N_0
    have hB : ¬(⟨n + 1, hn⟩ : Fin cfg0.N).val % 50 = 0 := by dsimp only; omega
    rw [outsAt0_B m c ⟨n + 1, hn⟩ hB]
    dsimp only
    unfold sout0_B_0
    exact scratch_eq c n _

/-- After point t the output band holds the normalised aggregate of the point's band of the adjacency matrices over
    the support of the arguments. -/
theorem band_eq (c : Dev nD) (t : Fin cfg0.N) :
    (outsAt0 m c t.val t.isLt).1
      = Cert.Gcn.normalise (Cert.Gcn.aggregate (iblk m c 2 t : Vec Ideal S200x10000 .f32) (iblk m c 3 t : Vec Ideal S200x10000 .f32) (supp m c)) := by
  by_cases h0 : t.val % 50 = 0
  · rw [outsAt0_A m c t h0]
    dsimp only
    refine (Pieces.band_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans ?_
    refine (first_band_value (iblk m c 0 t) (iblk m c 1 t) (iblk m c 2 t) (iblk m c 3 t)).trans ?_
    rw [features_block, weights_block]
  · rw [outsAt0_B m c t h0]
    dsimp only
    refine (Pieces.band_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2).trans ?_
    refine (BlockValue.band_payload (iblk m c 2 t) (iblk m c 3 t) (outsAt0 m c (t.val - 1) (Nat.lt_of_le_of_lt (Nat.sub_le _ _) t.isLt)).2 _ _ _ _).trans ?_
    rw [scratch_eq m c (t.val - 1) _]

end Cert.KernelIdeal.Sweep

end
-- ==== Proof.KernelValue.lean ====
/-
  The kernel's result array after the run, on the extended reals, is the layer of LibGcnLayer of the four arguments.

  Point t writes back band t of the output: rows 200·t … 200·t + 199, all 128 columns. By the sweep that band holds the
  normalised aggregate of rows 200·t … 200·t + 199 of the two adjacency matrices over the support of the arguments, and
  a band of rows of the layer is the layer of that band of rows, so what point t writes back is band t of the layer.
  The fifty bands cover the array (row r lies in band r / 200), so the array after the run is the layer.
-/
import proofs.«150965_g49323404427479_cont_8to1c4_576_29_alg».proof.Proof.Sweep

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer of the argument arrays as the launch finds them. -/
abbrev result (c : Dev nD) : Vec Ideal S10000x128 .f32 :=
  Cert.Gcn.layer (m ((c : Thread nD τ).loc main_arg1)) (m ((c : Thread nD τ).loc main_arg2))
    (m ((c : Thread nD τ).loc main_arg0)) (m ((c : Thread nD τ).loc main_arg3))

/-- Row p of point t's band of the first adjacency matrix is row 200·t + p of the matrix. -/
theorem adj_band (c : Dev nD) (t : Fin cfg0.N) (p : Fin 200) (k : Fin 10000) (r : Fin 10000) (hr : r.val = 200 * t.val + p.val) :
    (iblk m c 2 t : Vec Ideal S200x10000 .f32) (ix2 p k) = m ((c : Thread nD τ).loc main_arg1) (ix2 r k) := by
  obtain ⟨-, -, -, -, e0, e1, -⟩ := Sweep.index_facts t
  show V m c main_arg1 (((cfg0.win 2).blk t).view.emb (ix2 p k)) = V m c main_arg1 (ix2 r k)
  refine congrArg (V m c main_arg1) (funext fun a => Fin.ext ?_)
  match a with
  | ⟨0, _⟩ => show win0_2.index t (0 : Fin 2) * 200 + 1 * p.val = r.val; omega
  | ⟨1, _⟩ => show win0_2.index t (1 : Fin 2) * 10000 + 1 * k.val = k.val; omega

/-- Row p of point t's band of the second adjacency matrix is row 200·t + p of the matrix. -/
theorem adjw_band (c : Dev nD) (t : Fin cfg0.N) (p : Fin 200) (k : Fin 10000) (r : Fin 10000) (hr : r.val = 200 * t.val + p.val) :
    (iblk m c 3 t : Vec Ideal S200x10000 .f32) (ix2 p k) = m ((c : Thread nD τ).loc main_arg2) (ix2 r k) := by
  obtain ⟨-, -, -, -, -, -, e0, e1, -⟩ := Sweep.index_facts t
  show V m c main_arg2 (((cfg0.win 3).blk t).view.emb (ix2 p k)) = V m c main_arg2 (ix2 r k)
  refine congrArg (V m c main_arg2) (funext fun a => Fin.ext ?_)
  match a with
  | ⟨0, _⟩ => show win0_3.index t (0 : Fin 2) * 200 + 1 * p.val = r.val; omega
  | ⟨1, _⟩ => show win0_3.index t (1 : Fin 2) * 10000 + 1 * k.val = k.val; omega

/-- What point t writes back is band t of the layer. -/
theorem flushed_eq (c : Dev nD) (t : Fin cfg0.N) :
    (dats m 0 c).flushed 4 t = ((cfg0.win 4).blk t).view.read (Elt Ideal) (result m c) := by
  have hN : t.val < 50 := lt_of_lt_of_eq t.isLt (show cfg0.N = 50 from N_0)
  obtain ⟨-, -, -, -, -, -, -, -, e0, e1⟩ := Sweep.index_facts t
  rw [Value.flushed4, Sweep.band_eq]
  funext y
  obtain ⟨p, q, rfl⟩ : ∃ (p : Fin 200) (q : Fin 128), y = ix2 p q := ⟨y 0, y 1, eq_ix2 y⟩
  have hemb : ((cfg0.win 4).blk t).view.emb (ix2 p q) = ix2 (⟨200 * t.val + p.val, by omega⟩ : Fin 10000) q := by
    funext a; apply Fin.ext
    match a with
    | ⟨0, _⟩ => show win0_4.index t (0 : Fin 2) * 200 + 1 * p.val = 200 * t.val + p.val; omega
    | ⟨1, _⟩ => show win0_4.index t (1 : Fin 2) * 128 + 1 * q.val = q.val; omega
  show Cert.Gcn.normalise (Cert.Gcn.aggregate (iblk m c 2 t : Vec Ideal S200x10000 .f32) (iblk m c 3 t : Vec Ideal S200x10000 .f32) (Sweep.supp m c)) (ix2 p q)
    = result m c (((cfg0.win 4).blk t).view.emb (ix2 p q))
  rw [hemb]
  exact Cert.Gcn.normalise_aggregate_row _ _ _ _ _ p ⟨200 * t.val + p.val, by omega⟩
    (fun k => adj_band m c t p k _ rfl) (fun k => adjw_band m c t p k _ rfl) q

/-- An index of the array is in point t's band iff each coordinate is in the band's range on its axis. -/
theorem mem_band (t : Fin cfg0.N) (i : S10000x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v0).slice (win0_4.rect t)).set ↔ _
  rw [View.set_slice_whole, Rect.mem_set_unit]
  exact Iff.rfl

/-- Every index of the array lies in the band of some point that writes back: row r in band r / 200. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 50 := N_0
  refine ⟨⟨(i 0).val / 200, by omega⟩, flush0_4 _, ?_⟩
  obtain ⟨-, -, -, -, -, -, -, -, e0, e1⟩ := Sweep.index_facts ⟨(i 0).val / 200, by omega⟩
  rw [mem_band]
  intro a
  match a with
  | ⟨0, _⟩ =>
    show win0_4.index _ (0 : Fin 2) * 200 ≤ (i 0).val ∧ (i 0).val < win0_4.index _ (0 : Fin 2) * 200 + 200
    rw [e0]; dsimp only; omega
  | ⟨1, _⟩ =>
    show win0_4.index _ (1 : Fin 2) * 128 ≤ (i 1).val ∧ (i 1).val < win0_4.index _ (1 : Fin 2) * 128 + 128
    rw [e1]; omega

/-- The result array after the run is the layer of the arguments. -/
theorem final (c : Dev nD) : (dats m 0 c).arrAt 4 cfg0.N = result m c :=
  (dats m 0 c).arrAt_eq_of_cover 4 (result m c) (fun t _ => flushed_eq m c t) (cover)

/-- The run: the result array ends at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference program, read entry by entry on the extended reals, is the layer of LibGcnLayer.

  Its first product is the support X·W, its second the aggregate (A + B)·S; the function it calls for the norm squares
  the aggregate, sums each row from the zero word, and takes the square root; the result is the aggregate divided, row
  by row, by the larger of that norm and the floor.
-/
import proofs.«150965_g49323404427479_cont_8to1c4_576_29_alg».proof.Proof.Gen.ReferenceIdeal.Read
import proofs.«150965_g49323404427479_cont_8to1c4_576_29_alg».proof.Proof.LibGcnLayer

noncomputable section

namespace Cert.ReferenceIdeal.RefValue

open Cert.ReferenceIdeal Cert.ReferenceIdeal.Read Idealize.ShloMosaic Idealize.ShloMosaic.ValueIdx
open scoped BigOperators

/-! The index functions of the reference's operations, at an index written by coordinates. -/

theorem lidx1 (r : Fin 10000) (c : Fin 128) (k : Fin 128) : lidx_main_v1 (ix2 r c) k = ix2 r k :=
  funext fun a => Fin.ext (by match a with | ⟨0, _⟩ => rfl | ⟨1, _⟩ => rfl)
theorem ridx1 (r : Fin 10000) (c : Fin 128) (k : Fin 128) : ridx_main_v1 (ix2 r c) k = ix2 k c :=
  funext fun a => Fin.ext (by match a with | ⟨0, _⟩ => rfl | ⟨1, _⟩ => rfl)
theorem lidx2 (r : Fin 10000) (c : Fin 128) (k : Fin 10000) : lidx_main_v2 (ix2 r c) k = ix2 r k :=
  funext fun a => Fin.ext (by match a with | ⟨0, _⟩ => rfl | ⟨1, _⟩ => rfl)
theorem ridx2 (r : Fin 10000) (c : Fin 128) (k : Fin 10000) : ridx_main_v2 (ix2 r c) k = ix2 k c :=
  funext fun a => Fin.ext (by match a with | ⟨0, _⟩ => rfl | ⟨1, _⟩ => rfl)
theorem idxRow (r : Fin 10000) (k : Fin 128) : idx_main_call0_v1 (ix1 r) k = ix2 r k :=
  funext fun a => Fin.ext (by match a with | ⟨0, _⟩ => rfl | ⟨1, _⟩ => rfl)
theorem idxCol (r : Fin 10000) (c : Fin 128) : idx_main_v6 (ix2 r c) = ix2 r (0 : Fin 1) :=
  funext fun a => Fin.ext (by match a with | ⟨0, _⟩ => rfl | ⟨1, _⟩ => rfl)
theorem idxVec (r : Fin 10000) (u : Fin 1) : idx_main_call0_v2 (ix2 r u) = ix1 r :=
  funext fun a => Fin.ext (by match a with | ⟨0, _⟩ => rfl)

variable (x0 : (⟨S10000x128, .f32⟩ : BufTy).Contents (Elt Ideal)) (x1 x2 : (⟨S10000x10000, .f32⟩ : BufTy).Contents (Elt Ideal))
  (x3 : (⟨S128x128, .f32⟩ : BufTy).Contents (Elt Ideal))

/-- The first product is the support. -/
theorem support_eq : val_main_v1 (F := Ideal) x0 x3 = Cert.Gcn.support x0 x3 := by
  funext i
  obtain ⟨k, c, rfl⟩ : ∃ (k : Fin 10000) (c : Fin 128), i = ix2 k c := ⟨i 0, i 1, eq_ix2 i⟩
  rw [val_main_v1_apply, Cert.Gcn.support_apply]
  simp only [lidx1, ridx1]

/-- The second product is the aggregate over the support. -/
theorem aggregate_eq : val_main_v2 (F := Ideal) x0 x1 x2 x3 = Cert.Gcn.aggregate x1 x2 (Cert.Gcn.support x0 x3) := by
  funext i
  obtain ⟨r, c, rfl⟩ : ∃ (r : Fin 10000) (c : Fin 128), i = ix2 r c := ⟨i 0, i 1, eq_ix2 i⟩
  rw [val_main_v2_apply, Cert.Gcn.aggregate_apply, support_eq]
  simp only [lidx2, ridx2, val_main_v0_apply]
  rfl

/-- The reference's result is the layer. -/
theorem result_eq : val_main_v7 (F := Ideal) x0 x1 x2 x3 = Cert.Gcn.layer x1 x2 x0 x3 := by
  funext i
  obtain ⟨r, c, rfl⟩ : ∃ (r : Fin 10000) (c : Fin 128), i = ix2 r c := ⟨i 0, i 1, eq_ix2 i⟩
  rw [val_main_v7_apply, val_main_v6_apply, idxCol, val_main_v5_apply, val_main_v3_apply, val_main_call0_v2_apply, idxVec,
    val_main_call0_v1_apply, val_main_v4_apply, val_main_cst_apply, val_main_call0_cst_apply]
  simp only [idxRow, val_main_call0_v0_apply, aggregate_eq]
  rfl

end Cert.ReferenceIdeal.RefValue

end
-- ==== Proof.lean ====
/-
  One dense graph-convolution layer with row normalisation: a tiled kernel against its array-level reference, equal on
  the extended reals.

  Both programs compute, from features X (10000×128), weights W (128×128) and two adjacency matrices A, B
  (10000×10000): the support S = X·W, the aggregate Y = (A + B)·S, the Euclidean norm of each row of Y (the square root
  of the zero word plus the sum of squares along the row), and Y divided row by row by the larger of that norm and a
  floor — the same float word, about 10⁻¹², in both programs.

  The reference does this on whole arrays. The kernel sweeps fifty bands of 200 rows. At the first band it stores the
  support in a scratch buffer that stays through the sweep; at every band it adds the band's rows of A and B,
  multiplies the sum against the scratch in four runs of the contracted index (2560 + 2560 + 2560 + 2320 = 10000), adds
  the four partial products, normalises the band's rows, and writes the band back.

  Why the two agree: the four partial sums are the one sum over all 10000 indices taken in consecutive runs, which
  uses only associativity of addition (true with infinite terms, so the finiteness of the inputs is not used); a row
  of the layer reads only that row of A and B, so a band of the layer is the layer of the band; the scratch holds the
  support after every band because only the first band writes it; and the fifty bands cover the array.

  The pieces: LibGcnLayer (the layer as one function, the row lemma, the four-run sum), RefValue (the reference is the
  layer), BlockValue (the body's arithmetic is the support and the normalised aggregate of a band), Pieces (what each
  case of the body leaves, as those payloads), Sweep (induction over the bands), KernelValue (from bands to the
  array). The idealisation rewrote nothing, so it is preserved trivially; the three frames are the generated runs.
-/
import proofs.«150965_g49323404427479_cont_8to1c4_576_29_alg».proof.Defs
import proofs.«150965_g49323404427479_cont_8to1c4_576_29_alg».proof.Proof.Gen.Kernel
import proofs.«150965_g49323404427479_cont_8to1c4_576_29_alg».proof.Proof.Gen.Kernel.Frame
import proofs.«150965_g49323404427479_cont_8to1c4_576_29_alg».proof.Proof.Gen.KernelIdeal
import proofs.«150965_g49323404427479_cont_8to1c4_576_29_alg».proof.Proof.Gen.KernelIdeal.Frame
import proofs.«150965_g49323404427479_cont_8to1c4_576_29_alg».proof.Proof.Gen.KernelIdeal.Value
import proofs.«150965_g49323404427479_cont_8to1c4_576_29_alg».proof.Proof.Gen.ReferenceIdeal
import proofs.«150965_g49323404427479_cont_8to1c4_576_29_alg».proof.Proof.Gen.ReferenceIdeal.Run
import proofs.«150965_g49323404427479_cont_8to1c4_576_29_alg».proof.Proof.Gen.ReferenceIdeal.Read
import proofs.«150965_g49323404427479_cont_8to1c4_576_29_alg».proof.Proof.Gen.Pre_finite_inputs
import proofs.«150965_g49323404427479_cont_8to1c4_576_29_alg».proof.Proof.KernelValue
import proofs.«150965_g49323404427479_cont_8to1c4_576_29_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- On the extended reals the kernel's result array ends at the layer of its arguments, and the reference's result at
    the layer of its own; the arguments agree, so the results are equal. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
